-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  main_v3
-- ==== Kernel.lean ====
abbrev S2x16x2048x64 : Shape := ⟨4, ![2, 16, 2048, 64]⟩
abbrev S1x8x2048x64 : Shape := ⟨4, ![1, 8, 2048, 64]⟩
abbrev S8x2048x64 : Shape := ⟨3, ![8, 2048, 64]⟩
abbrev S8x64x64 : Shape := ⟨3, ![8, 64, 64]⟩

abbrev nBuf : Space → Nat
  | .hbm => 2
  | .vmem => 4
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .local _ .vmem, ⟨0, _⟩ => ⟨S1x8x2048x64, .f32⟩
  | .local _ .vmem, ⟨1, _⟩ => ⟨S1x8x2048x64, .f32⟩
  | .local _ .vmem, ⟨2, _⟩ => ⟨S1x8x2048x64, .f32⟩
  | .local _ .vmem, ⟨3, _⟩ => ⟨S1x8x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8x2048x64_S1x8x2048x64_0_0_0_0 : ∀ a, (![0, 0, 0, 0] : Fin 4 → Nat) a + S1x8x2048x64.size a ≤ S1x8x2048x64.size a
  h_S1x8x2048x64 : 0 < S1x8x2048x64.numel
  shapeCasts_S1x8x2048x64_S8x2048x64 : S1x8x2048x64.ShapeCasts S8x2048x64
  bitsLt_bf16_f32 : FTy.bits .bf16 < FTy.bits .f32
  shapeCasts_S8x2048x64_S1x8x2048x64 : S8x2048x64.ShapeCasts S1x8x2048x64
  dot_S8x2048x64_S8x2048x64_S8x64x64_1_1_2_2_0_0_wf : DotDims.WF S8x2048x64 S8x2048x64 S8x64x64 [1] [1] [2] [2] [0] [0]
  dot_S8x2048x64_S8x64x64_S8x2048x64_2_1_1_2_0_0_wf : DotDims.WF S8x2048x64 S8x64x64 S8x2048x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x2048x64.size a ≤ S2x16x2048x64.size a
  hwx0_0 : ∀ i : grid0.Coords, EltTy.bits .f32 = 32 ∨ (Rect.block (s := S2x16x2048x64) S1x8x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048x64.size a ≤ S2x16x2048x64.size a
  hwx0_1 : ∀ i : grid0.Coords, EltTy.bits .f32 = 32 ∨ (Rect.block (s := S2x16x2048x64) S1x8x2048x64.size (cc0_transform_1 i) (hinb0_1 i)).WholeWords (EltTy.packing .f32)

variable [Facts₀]

def dot_S8x2048x64_S8x2048x64_S8x64x64_1_1_2_2_0_0 : DotDims S8x2048x64 S8x2048x64 S8x64x64 where
  lhsContracting := [1]
  rhsContracting := [1]
  lhsNonContracting := [2]
  rhsNonContracting := [2]
  lhsBatch := [0]
  rhsBatch := [0]
  wf := dot_S8x2048x64_S8x2048x64_S8x64x64_1_1_2_2_0_0_wf
def dot_S8x2048x64_S8x64x64_S8x2048x64_2_1_1_2_0_0 : DotDims S8x2048x64 S8x64x64 S8x2048x64 where
  lhsContracting := [2]
  rhsContracting := [1]
  lhsNonContracting := [1]
  rhsNonContracting := [2]
  lhsBatch := [0]
  rhsBatch := [0]
  wf := dot_S8x2048x64_S8x64x64_S8x2048x64_2_1_1_2_0_0_wf

abbrev win0_0 : Pipeline.Window sig grid0 :=
  Pipeline.Window.ofSpec (Memref.whole main_arg0) S1x8x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x2048x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x2048, .f32⟩
  | .hbm, ⟨2, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Unnormalised self-attention of one array `x` over [batch 2, head 16, position 2048, feature 64], written two ways.
  For a fixed batch and head, with `X` the 2048 × 64 matrix of that head:

    * by scores:  out = (X Xᵀ) X      — out[t, e] = ∑ j, (∑ d, X[t, d] · X[j, d]) · X[j, e]
    * by Gram:    out = X (Xᵀ X)      — out[t, e] = ∑ d, X[t, d] · (∑ s, X[s, d] · X[s, e])

  The two are the associativity of the matrix product. Entry by entry that is distributing a factor over a finite sum
  and exchanging two finite sums, which holds over the reals; on the extended reals distributivity fails at the
  infinities, so the law is stated for an array all of whose entries are real numbers.
-/
import Idealize.ShloMosaic.PureOps.Ideal
import Idealize.ShloMosaic.Lib.ValueIdx

noncomputable section

namespace Cert.AttnSpec

open Idealize.ShloMosaic Idealize.ShloMosaic.ValueIdx
open scoped BigOperators

/-- An array of extended reals over [2, 16, 2048, 64]. -/
abbrev Arr : Type := (⟨4, ![2, 16, 2048, 64]⟩ : Shape).Idx → EReal

/-- `X (Xᵀ X)` per batch and head: the row `t` of `X` against the 64 × 64 Gram matrix of the head. -/
def viaGram (x : Arr) : Arr := fun i =>
  ∑ d : Fin 64, x (ix4 (i 0) (i 1) (i 2) d) * ∑ s : Fin 2048, x (ix4 (i 0) (i 1) s d) * x (ix4 (i 0) (i 1) s (i 3))

/-- `(X Xᵀ) X` per batch and head: the row `t` of the 2048 × 2048 score matrix against `X`. -/
def viaScores (x : Arr) : Arr := fun i =>
  ∑ j : Fin 2048, (∑ d : Fin 64, x (ix4 (i 0) (i 1) (i 2) d) * x (ix4 (i 0) (i 1) j d)) * x (ix4 (i 0) (i 1) j (i 3))

/-- Associativity of the product of three real matrices, at one entry: `a` a row, `f` a matrix, `g` a column. -/
theorem real_assoc {ι κ : Type} [Fintype ι] [Fintype κ] (a : κ → ℝ) (f : ι → κ → ℝ) (g : ι → ℝ) :
    ∑ d, a d * ∑ s, f s d * g s = ∑ s, (∑ d, a d * f s d) * g s := by
  simp only [Finset.mul_sum, Finset.sum_mul]
  rw [Finset.sum_comm]
  exact Finset.sum_congr rfl fun s _ => Finset.sum_congr rfl fun d _ => by ring

/-- The inclusion of the reals in the extended reals carries a finite sum to the sum of the inclusions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On an array of real numbers the two arrangements agree, entry by entry. -/
theorem viaGram_eq_viaScores (x : Arr) (hx : ∀ i, ∃ r : ℝ, x i = (r : EReal)) : viaGram x = viaScores x := by
  choose r hr using hx
  funext i
  unfold viaGram viaScores
  simp only [hr, ← EReal.coe_mul, ← coe_sum]
  exact congrArg (fun z : ℝ => (z : EReal))
    (real_assoc (fun d => r (ix4 (i 0) (i 1) (i 2) d)) (fun s d => r (ix4 (i 0) (i 1) s d))
      (fun s => r (ix4 (i 0) (i 1) s (i 3))))

end Cert.AttnSpec

end
-- ==== Proof.RefScores.lean ====
/-
  The reference computes the scores `X Xᵀ` of every batch and head (a contraction of the feature axis of `x` with
  itself, [2, 16, 2048, 2048]) and contracts their last axis with the position axis of `x`. Read at an entry
  (b, h, t, e) at the exact values, the first product is `∑ d, x[b,h,t,d] · x[b,h,j,d]` and the second
  `∑ j, scores[b,h,t,j] · x[b,h,j,e]`: the arrangement `viaScores` of the specification, index by index.
-/
import proofs.«104794_j52261162058330_2_alg».proof.Proof.Gen.ReferenceIdeal.Read
import proofs.«104794_j52261162058330_2_alg».proof.Proof.AttnSpec

noncomputable section

namespace Cert.ReferenceIdeal.RefValue

open Cert.ReferenceIdeal Cert.ReferenceIdeal.Read Idealize.ShloMosaic Idealize.ShloMosaic.ValueIdx Cert.AttnSpec

/-- The reference's result, as a function of its argument array, is the score arrangement. -/
theorem result_eq_viaScores (x : (⟨S2x16x2048x64, .f32⟩ : BufTy).Contents (Elt Ideal)) :
    val_main_v1 (F := Ideal) x = viaScores x := by
  funext i
  -- the operand indices of the two contractions, by coordinates
  have e1 : ∀ k : Fin 2048, ridx_main_v1 i k = ix4 (i 0) (i 1) k (i 3) := fun k => funext fun a => by
    match a with
    | ⟨0, _⟩ => rfl
    | ⟨1, _⟩ => rfl
    | ⟨2, _⟩ => rfl
    | ⟨3, _⟩ => rfl
  have e2 : ∀ (k : Fin 2048) (k' : Fin 64), lidx_main_v0 (lidx_main_v1 i k) k' = ix4 (i 0) (i 1) (i 2) k' :=
    fun k k' => funext fun a => by
      match a with
      | ⟨0, _⟩ => rfl
      | ⟨1, _⟩ => rfl
      | ⟨2, _⟩ => rfl
      | ⟨3, _⟩ => rfl
  have e3 : ∀ (k : Fin 2048) (k' : Fin 64), ridx_main_v0 (lidx_main_v1 i k) k' = ix4 (i 0) (i 1) k k' :=
    fun k k' => funext fun a => by
      match a with
      | ⟨0, _⟩ => rfl
      | ⟨1, _⟩ => rfl
      | ⟨2, _⟩ => rfl
      | ⟨3, _⟩ => rfl
  rw [val_main_v1_apply]
  simp only [val_main_v0_apply, e1, e2, e3]
  rfl

end Cert.ReferenceIdeal.RefValue

end
-- ==== Proof.GramBlock.lean ====
/-
  What the kernel body computes from one block of `x` — eight heads of one batch, [1, 8, 2048, 64] — read at an
  entry, at the exact values. The body drops the unit batch axis, forms per head the 64 × 64 Gram matrix
  `Xᵀ X` (a contraction over the 2048 positions of the block with itself; the narrowing of the operands to a
  shorter float format is the identity on exact values) into a zero accumulator, multiplies the block by it (a
  contraction over the 64 features, again into zero), and restores the unit axis. At (u, h, t, e) that is
      ∑ d, v[0,h,t,d] · ∑ s, v[0,h,s,d] · v[0,h,s,e].
  A matrix product into a zero accumulator is, at an entry, the sum over the one contracted axis of the
  operands' products; the operand indices at an output index and a contraction index are read off the
  product's dimension numbers, axis by axis.
-/
import proofs.«104794_j52261162058330_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The Gram product: operand indices, axis by axis -/

theorem gram_lhs_0 (i : S8x64x64.Idx) (q : dot_S8x2048x64_S8x2048x64_S8x64x64_1_1_2_2_0_0.contr.Idx) :
    (dot_S8x2048x64_S8x2048x64_S8x64x64_1_1_2_2_0_0.lhsIdx i q 0).val = (i 0).val := by
  unfold DotDims.lhsIdx
  rw [dif_pos (show (0 : Fin S8x2048x64.rank) ∈ dot_S8x2048x64_S8x2048x64_S8x64x64_1_1_2_2_0_0.lhsBatch by decide)]
  rfl
theorem gram_lhs_1 (i : S8x64x64.Idx) (q : dot_S8x2048x64_S8x2048x64_S8x64x64_1_1_2_2_0_0.contr.Idx) :
    (dot_S8x2048x64_S8x2048x64_S8x64x64_1_1_2_2_0_0.lhsIdx i q 1).val = (q ⟨0, by decide⟩).val :=
  dot_S8x2048x64_S8x2048x64_S8x64x64_1_1_2_2_0_0.lhsIdx_val_of_single rfl i q
theorem gram_lhs_2 (i : S8x64x64.Idx) (q : dot_S8x2048x64_S8x2048x64_S8x64x64_1_1_2_2_0_0.contr.Idx) :
    (dot_S8x2048x64_S8x2048x64_S8x64x64_1_1_2_2_0_0.lhsIdx i q 2).val = (i 1).val := by
  unfold DotDims.lhsIdx
  rw [dif_neg (show ¬(2 : Fin S8x2048x64.rank) ∈ dot_S8x2048x64_S8x2048x64_S8x64x64_1_1_2_2_0_0.lhsBatch by decide), dif_pos (show (2 : Fin S8x2048x64.rank) ∈ dot_S8x2048x64_S8x2048x64_S8x64x64_1_1_2_2_0_0.lhsNonContracting by decide)]
  rfl
theorem gram_rhs_0 (i : S8x64x64.Idx) (q : dot_S8x2048x64_S8x2048x64_S8x64x64_1_1_2_2_0_0.contr.Idx) :
    (dot_S8x2048x64_S8x2048x64_S8x64x64_1_1_2_2_0_0.rhsIdx i q 0).val = (i 0).val := by
  unfold DotDims.rhsIdx
  rw [dif_pos (show (0 : Fin S8x2048x64.rank) ∈ dot_S8x2048x64_S8x2048x64_S8x64x64_1_1_2_2_0_0.rhsBatch by decide)]
  rfl
theorem gram_rhs_1 (i : S8x64x64.Idx) (q : dot_S8x2048x64_S8x2048x64_S8x64x64_1_1_2_2_0_0.contr.Idx) :
    (dot_S8x2048x64_S8x2048x64_S8x64x64_1_1_2_2_0_0.rhsIdx i q 1).val = (q ⟨0, by decide⟩).val :=
  dot_S8x2048x64_S8x2048x64_S8x64x64_1_1_2_2_0_0.rhsIdx_val_of_single rfl i q
theorem gram_rhs_2 (i : S8x64x64.Idx) (q : dot_S8x2048x64_S8x2048x64_S8x64x64_1_1_2_2_0_0.contr.Idx) :
    (dot_S8x2048x64_S8x2048x64_S8x64x64_1_1_2_2_0_0.rhsIdx i q 2).val = (i 2).val := by
  unfold DotDims.rhsIdx
  rw [dif_neg (show ¬(2 : Fin S8x2048x64.rank) ∈ dot_S8x2048x64_S8x2048x64_S8x64x64_1_1_2_2_0_0.rhsBatch by decide), dif_pos (show (2 : Fin S8x2048x64.rank) ∈ dot_S8x2048x64_S8x2048x64_S8x64x64_1_1_2_2_0_0.rhsNonContracting by decide)]
  rfl

/-- The Gram product into zero at (h, d, e): the sum over the positions `s` of `v[h,s,d] · v[h,s,e]`. -/
theorem gram_apply {φ : FTy} (v : FVec Ideal S8x2048x64 φ) (j : S8x64x64.Idx) :
    matmul dot_S8x2048x64_S8x2048x64_S8x64x64_1_1_2_2_0_0 none v v (constant (F := Ideal) S8x64x64 .f32 0x00000000#32) j
      = ∑ s : Fin 2048, v (ix3 (j 0) s (j 1)) * v (ix3 (j 0) s (j 2)) := by
  simp only [matmul]
  rw [Ideal.matmul_constant_zero_apply, ← Equiv.sum_comp (contrEquiv1 dot_S8x2048x64_S8x2048x64_S8x64x64_1_1_2_2_0_0 2048 rfl rfl).symm]
  refine Finset.sum_congr rfl fun s _ => ?_
  have hs := contrEquiv1_symm_val dot_S8x2048x64_S8x2048x64_S8x64x64_1_1_2_2_0_0 2048 rfl rfl s
  have el : dot_S8x2048x64_S8x2048x64_S8x64x64_1_1_2_2_0_0.lhsIdx j ((contrEquiv1 dot_S8x2048x64_S8x2048x64_S8x64x64_1_1_2_2_0_0 2048 rfl rfl).symm s) = ix3 (j 0) s (j 1) := funext fun a => Fin.ext (by
    match a with
    | ⟨0, _⟩ => exact gram_lhs_0 _ _
    | ⟨1, _⟩ => exact (gram_lhs_1 _ _).trans hs
    | ⟨2, _⟩ => exact gram_lhs_2 _ _)
  have er : dot_S8x2048x64_S8x2048x64_S8x64x64_1_1_2_2_0_0.rhsIdx j ((contrEquiv1 dot_S8x2048x64_S8x2048x64_S8x64x64_1_1_2_2_0_0 2048 rfl rfl).symm s) = ix3 (j 0) s (j 2) := funext fun a => Fin.ext (by
    match a with
    | ⟨0, _⟩ => exact gram_rhs_0 _ _
    | ⟨1, _⟩ => exact (gram_rhs_1 _ _).trans hs
    | ⟨2, _⟩ => exact gram_rhs_2 _ _)
  rw [el, er]
  rfl

/-! ## The product of the block with its Gram matrix: operand indices, axis by axis -/

theorem rows_lhs_0 (i : S8x2048x64.Idx) (q : dot_S8x2048x64_S8x64x64_S8x2048x64_2_1_1_2_0_0.contr.Idx) :
    (dot_S8x2048x64_S8x64x64_S8x2048x64_2_1_1_2_0_0.lhsIdx i q 0).val = (i 0).val := by
  unfold DotDims.lhsIdx
  rw [dif_pos (show (0 : Fin S8x2048x64.rank) ∈ dot_S8x2048x64_S8x64x64_S8x2048x64_2_1_1_2_0_0.lhsBatch by decide)]
  rfl
theorem rows_lhs_1 (i : S8x2048x64.Idx) (q : dot_S8x2048x64_S8x64x64_S8x2048x64_2_1_1_2_0_0.contr.Idx) :
    (dot_S8x2048x64_S8x64x64_S8x2048x64_2_1_1_2_0_0.lhsIdx i q 1).val = (i 1).val := by
  unfold DotDims.lhsIdx
  rw [dif_neg (show ¬(1 : Fin S8x2048x64.rank) ∈ dot_S8x2048x64_S8x64x64_S8x2048x64_2_1_1_2_0_0.lhsBatch by decide), dif_pos (show (1 : Fin S8x2048x64.rank) ∈ dot_S8x2048x64_S8x64x64_S8x2048x64_2_1_1_2_0_0.lhsNonContracting by decide)]
  rfl
theorem rows_lhs_2 (i : S8x2048x64.Idx) (q : dot_S8x2048x64_S8x64x64_S8x2048x64_2_1_1_2_0_0.contr.Idx) :
    (dot_S8x2048x64_S8x64x64_S8x2048x64_2_1_1_2_0_0.lhsIdx i q 2).val = (q ⟨0, by decide⟩).val :=
  dot_S8x2048x64_S8x64x64_S8x2048x64_2_1_1_2_0_0.lhsIdx_val_of_single rfl i q
theorem rows_rhs_0 (i : S8x2048x64.Idx) (q : dot_S8x2048x64_S8x64x64_S8x2048x64_2_1_1_2_0_0.contr.Idx) :
    (dot_S8x2048x64_S8x64x64_S8x2048x64_2_1_1_2_0_0.rhsIdx i q 0).val = (i 0).val := by
  unfold DotDims.rhsIdx
  rw [dif_pos (show (0 : Fin S8x64x64.rank) ∈ dot_S8x2048x64_S8x64x64_S8x2048x64_2_1_1_2_0_0.rhsBatch by decide)]
  rfl
theorem rows_rhs_1 (i : S8x2048x64.Idx) (q : dot_S8x2048x64_S8x64x64_S8x2048x64_2_1_1_2_0_0.contr.Idx) :
    (dot_S8x2048x64_S8x64x64_S8x2048x64_2_1_1_2_0_0.rhsIdx i q 1).val = (q ⟨0, by decide⟩).val :=
  dot_S8x2048x64_S8x64x64_S8x2048x64_2_1_1_2_0_0.rhsIdx_val_of_single rfl i q
theorem rows_rhs_2 (i : S8x2048x64.Idx) (q : dot_S8x2048x64_S8x64x64_S8x2048x64_2_1_1_2_0_0.contr.Idx) :
    (dot_S8x2048x64_S8x64x64_S8x2048x64_2_1_1_2_0_0.rhsIdx i q 2).val = (i 2).val := by
  unfold DotDims.rhsIdx
  rw [dif_neg (show ¬(2 : Fin S8x64x64.rank) ∈ dot_S8x2048x64_S8x64x64_S8x2048x64_2_1_1_2_0_0.rhsBatch by decide), dif_pos (show (2 : Fin S8x64x64.rank) ∈ dot_S8x2048x64_S8x64x64_S8x2048x64_2_1_1_2_0_0.rhsNonContracting by decide)]
  rfl

/-- The block times a per-head 64 × 64 matrix, into zero, at (h, t, e): the sum over the features `d` of
    `v[h,t,d] · g[h,d,e]`. -/
theorem rows_apply (v : FVec Ideal S8x2048x64 .f32) (g : FVec Ideal S8x64x64 .f32) (j : S8x2048x64.Idx) :
    matmul dot_S8x2048x64_S8x64x64_S8x2048x64_2_1_1_2_0_0 (some .fp32) v g (constant (F := Ideal) S8x2048x64 .f32 0x00000000#32) j
      = ∑ d : Fin 64, v (ix3 (j 0) (j 1) d) * g (ix3 (j 0) d (j 2)) := by
  simp only [matmul]
  rw [Ideal.matmul_constant_zero_apply, ← Equiv.sum_comp (contrEquiv1 dot_S8x2048x64_S8x64x64_S8x2048x64_2_1_1_2_0_0 64 rfl rfl).symm]
  refine Finset.sum_congr rfl fun d _ => ?_
  have hd := contrEquiv1_symm_val dot_S8x2048x64_S8x64x64_S8x2048x64_2_1_1_2_0_0 64 rfl rfl d
  have el : dot_S8x2048x64_S8x64x64_S8x2048x64_2_1_1_2_0_0.lhsIdx j ((contrEquiv1 dot_S8x2048x64_S8x64x64_S8x2048x64_2_1_1_2_0_0 64 rfl rfl).symm d) = ix3 (j 0) (j 1) d := funext fun a => Fin.ext (by
    match a with
    | ⟨0, _⟩ => exact rows_lhs_0 _ _
    | ⟨1, _⟩ => exact rows_lhs_1 _ _
    | ⟨2, _⟩ => exact (rows_lhs_2 _ _).trans hd)
  have er : dot_S8x2048x64_S8x64x64_S8x2048x64_2_1_1_2_0_0.rhsIdx j ((contrEquiv1 dot_S8x2048x64_S8x64x64_S8x2048x64_2_1_1_2_0_0 64 rfl rfl).symm d) = ix3 (j 0) d (j 2) := funext fun a => Fin.ext (by
    match a with
    | ⟨0, _⟩ => exact rows_rhs_0 _ _
    | ⟨1, _⟩ => exact (rows_rhs_1 _ _).trans hd
    | ⟨2, _⟩ => exact rows_rhs_2 _ _)
  rw [el, er]
  rfl

/-! ## The body's stored value at an entry -/

/-- The value the body stores, at (u, h, t, e) of its [1, 8, 2048, 64] block `v`: row `t` of head `h` against that
    head's Gram matrix. -/
theorem stored_apply (v : Vec Ideal S1x8x2048x64 .f32) (u : Fin 1) (h : Fin 8) (t : Fin 2048) (e : Fin 64) :
    k0_pay1 v (ix4 u h t e)
      = ∑ d : Fin 64, v (ix4 (0 : Fin 1) h t d) * ∑ s : Fin 2048, v (ix4 (0 : Fin 1) h s d) * v (ix4 (0 : Fin 1) h s e) := by
  unfold k0_pay1
  refine (shapeCast_abc_1abc_apply _ _ u h t e).trans ?_
  refine (rows_apply _ _ (ix3 h t e)).trans ?_
  refine Finset.sum_congr rfl fun d _ => ?_
  refine congrArg₂ (· * ·) (shapeCast_1abc_abc_apply v _ h t d) ?_
  refine (gram_apply _ (ix3 h d e)).trans ?_
  refine Finset.sum_congr rfl fun s _ => ?_
  exact congrArg₂ (· * ·) (shapeCast_1abc_abc_apply v _ h s d) (shapeCast_1abc_abc_apply v _ h s e)

end Cert.KernelIdeal.Body

end
-- ==== Proof.GramArray.lean ====
/-
  From blocks to the whole result array. The grid has 2 × 2 points; point (b, g) stages the block of `x` holding
  batch `b` and the eight heads 8g … 8g+7, all positions and features, and writes back the block of the result at
  the same place. Inside a block the body's value at (u, h, t, e) is row `t` of head `h` of the block against
  that head's Gram matrix (the block-level reading of the body); an entry (0, h, s, d) of the staged block is the
  entry (b, 8g + h, s, d) of `x`, so what a point writes back is the block, at that point, of ONE function of the
  whole argument: the Gram arrangement `X (Xᵀ X)` of the specification. The four blocks tile the result array
  (entry (b, k, t, e) lies in the block of point (b, k / 8)), so after the run the result array is that function.
-/
import proofs.«104794_j52261162058330_2_alg».proof.Proof.Gen.KernelIdeal.Value
import proofs.«104794_j52261162058330_2_alg».proof.Proof.GramBlock
import proofs.«104794_j52261162058330_2_alg».proof.Proof.AttnSpec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.AttnSpec
open Idealize.ShloMosaic.Pipeline (Dat)

variable (m : (ℓ : Loc nD τ sig) → Buf (Elt Ideal) ℓ) (ρ : Dev nD → PrngReg)

/-- The body loads and stores its staging buffers whole: the rectangle's offsets are all zero. -/
theorem zero_offsets : (![0, 0, 0, 0] : Fin 4 → Nat) = fun _ => 0 := funext fun a => by fin_cases a <;> rfl

/-- The two windows move together over the grid — the same batch and head-group block, the position and feature
    axes whole — and the block indices stay in range. Decided over the four points. -/
theorem index_facts : ∀ t : Fin cfg0.N,
    win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 1 ∧ win0_1.index t (1 : Fin 4) ≤ 1 :=
  (by decide +kernel : ∀ t : Fin grid0.N, _)

/-- Every (batch, head-group) block is some point's. -/
theorem index_onto : ∀ (q0 : Fin 2) (q1 : Fin 2), ∃ t : Fin cfg0.N, win0_1.index t = ![q0.val, q1.val, 0, 0] :=
  (by decide +kernel : ∀ (q0 : Fin 2) (q1 : Fin 2), ∃ t : Fin grid0.N, win0_1.index t = ![q0.val, q1.val, 0, 0])

/-- What point `t` writes back is the block, at `t`, of the Gram arrangement of the whole argument array. -/
theorem flushed_eq (c : Dev nD) (t : Fin cfg0.N) :
    (dats m 0 c).flushed 1 t = ((cfg0.win 1).blk t).view.read (Elt Ideal) (viaGram (V m c main_arg0)) := by
  rw [Cert.KernelIdeal.Value.flushed1]
  unfold out0_1
  rw [View.canon_unit_zero zero_offsets]
  simp only [View.ld_unit_zero (S := S1x8x2048x64) zero_offsets]
  obtain ⟨e0, e1, e2, e3, e4, e5, -, -⟩ := index_facts t
  funext j
  show k0_pay1 (iblk m c 0 t) j = viaGram (V m c main_arg0) (((cfg0.win 1).blk t).view.emb j)
  obtain ⟨u, h, r, e, rfl⟩ : ∃ (u : Fin 1) (h : Fin 8) (r : Fin 2048) (e : Fin 64), j = ix4 u h r e :=
    ⟨j 0, j 1, j 2, j 3, eq_ix4 j⟩
  refine (Body.stored_apply (iblk m c 0 t) u h r e).trans ?_
  have hu : u.val = 0 := by omega
  -- an entry of the staged block is an entry of the argument, at the batch and head of the block written back
  have hblk : ∀ (s : Fin 2048) (d : Fin 64), iblk m c 0 t (ix4 (0 : Fin 1) h s d)
      = V m c main_arg0 (ix4 (((cfg0.win 1).blk t).view.emb (ix4 u h r e) 0) (((cfg0.win 1).blk t).view.emb (ix4 u h r e) 1) s d) := by
    intro s d
    show V m c main_arg0 (((cfg0.win 0).blk t).view.emb (ix4 (0 : Fin 1) h s d)) = _
    refine congrArg (V m c main_arg0) ?_
    funext a; apply Fin.ext
    match a with
    | ⟨0, _⟩ => show win0_0.index t (0 : Fin 4) * 1 + 1 * 0 = win0_1.index t (0 : Fin 4) * 1 + 1 * u.val; omega
    | ⟨1, _⟩ => show win0_0.index t (1 : Fin 4) * 8 + 1 * h.val = win0_1.index t (1 : Fin 4) * 8 + 1 * h.val; omega
    | ⟨2, _⟩ => show win0_0.index t (2 : Fin 4) * 2048 + 1 * s.val = s.val; omega
    | ⟨3, _⟩ => show win0_0.index t (3 : Fin 4) * 64 + 1 * d.val = d.val; omega
  have hE2 : ((cfg0.win 1).blk t).view.emb (ix4 u h r e) 2 = r := by
    apply Fin.ext
    show win0_1.index t (2 : Fin 4) * 2048 + 1 * r.val = r.val; omega
  have hE3 : ((cfg0.win 1).blk t).view.emb (ix4 u h r e) 3 = e := by
    apply Fin.ext
    show win0_1.index t (3 : Fin 4) * 64 + 1 * e.val = e.val; omega
  unfold viaGram
  dsimp only
  rw [hE2, hE3]
  exact Finset.sum_congr rfl fun d _ => congrArg₂ (· * ·) (hblk r d)
    (Finset.sum_congr rfl fun s _ => congrArg₂ (· * ·) (hblk s d) (hblk s e))

/-- An entry of the result array is in point `t`'s block iff each coordinate is in the block's range on its axis. -/
theorem mem_blk (t : Fin cfg0.N) (i : S2x16x2048x64.Idx) :
    i ∈ ((cfg0.win 1).blk t).view.set ↔ ∀ a : Fin 4, win0_1.index t a * S1x8x2048x64.size a ≤ (i a).val
      ∧ (i a).val < win0_1.index t a * S1x8x2048x64.size a + S1x8x2048x64.size a := by
  show i ∈ ((View.whole main_v0).slice (win0_1.rect t)).set ↔ _
  rw [View.set_slice_whole, Rect.mem_set_unit]
  exact Iff.rfl

/-- The blocks tile the result array: entry (b, k, t, e) is in the block of the point whose block index is (b, k / 8). -/
theorem cover (i : S2x16x2048x64.Idx) :
    ∃ t : Fin cfg0.N, (cfg0.win 1).flush t = true ∧ i ∈ ((cfg0.win 1).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := index_onto ⟨(i 0).val, hi0⟩ ⟨(i 1).val / 8, by omega⟩
  have q0 : win0_1.index t (0 : Fin 4) = (i 0).val := congrFun ht 0
  have q1 : win0_1.index t (1 : Fin 4) = (i 1).val / 8 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 8 ≤ (i 1).val ∧ (i 1).val < win0_1.index t (1 : Fin 4) * 8 + 8; omega
  | ⟨2, _⟩ => show win0_1.index t (2 : Fin 4) * 2048 ≤ (i 2).val ∧ (i 2).val < win0_1.index t (2 : Fin 4) * 2048 + 2048; omega
  | ⟨3, _⟩ => show win0_1.index t (3 : Fin 4) * 64 ≤ (i 3).val ∧ (i 3).val < win0_1.index t (3 : Fin 4) * 64 + 64; omega

/-- After the run the result array is the Gram arrangement of the argument array. -/
theorem final (c : Dev nD) : (dats m 0 c).arrAt 1 cfg0.N = viaGram (m ((c : Thread nD τ).loc main_arg0)) :=
  (dats m 0 c).arrAt_eq_of_cover 1 (viaGram (V m c main_arg0)) (fun t _ => flushed_eq m c t) cover

/-- The kernel's run: every weakly fair execution ends with the result at the Gram arrangement of the argument and
    the argument unchanged. -/
theorem run : θ_run defs (onTc (τ := τ) (main (F := Ideal))) ⟨m, fun _ => 0, ρ⟩ fun r => ∀ c : Dev nD,
      r.2.mem ((c : Thread nD τ).loc main_v0) = viaGram (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.FiniteArgs.lean ====
/-
  The precondition says that every entry of the argument array is a finite float: the conjunction, over all entries,
  of `|x| < +∞` is true. On the extended reals `|x|` is `max x (-x)`, which is below `+∞` exactly when `x` is
  neither infinity — that is, when `x` is a real number. This is what lets the associativity law, which needs
  distributivity, be used on the argument.
-/
import proofs.«104794_j52261162058330_2_alg».proof.Pre_finite_inputs
import Idealize.ShloMosaic.PureOps.Ideal
import Idealize.ShloMosaic.Lib.ReduceAll
import Idealize.ShloMosaic.Lib.ValueIdx

noncomputable section

namespace Cert.FiniteArgs

open Idealize.ShloMosaic Idealize.ShloMosaic.ValueIdx

instance : Subsingleton Cert.Pre_finite_inputs.S_.Idx := ⟨fun _ _ => funext fun d => d.elim0⟩

/-- The float pattern of `+∞` is the top of the extended reals. -/
theorem ofBits_inf : Ideal.ofBits .f32 0x7F800000#32 = (⊤ : EReal) := by simp [Ideal.ofBits, Ideal.ieee]

/-- An extended real whose absolute value is below `+∞` is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

variable [Cert.Pre_finite_inputs.Facts]

/-- Under the precondition every entry of the argument is a real number. -/
theorem real_of_pre (x : FVec Ideal Cert.Pre_finite_inputs.S2x16x2048x64 .f32)
    (h : Cert.Pre_finite_inputs.fn (F := Ideal) x = fun _ => 1#1) (i : Cert.Pre_finite_inputs.S2x16x2048x64.Idx) :
    ∃ r : ℝ, x i = (r : EReal) := by
  have h0 := congrFun h ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_inf] at hc
  refine real_of_abs_lt_top (x i) ?_
  by_contra hn
  simp [Ideal.cmp, hn] at hc

end Cert.FiniteArgs

end
-- ==== Proof.lean ====
/-
  Unnormalised self-attention of one array `x` over [2, 16, 2048, 64] with queries, keys and values all `x`: per
  batch and head, with `X` the 2048 × 64 matrix of the head, the result is `(X Xᵀ) X`.

  The reference computes it in that order: the 2048 × 2048 scores `X Xᵀ`, then their product with `X`. The kernel
  uses the associativity of the matrix product: per head it forms the 64 × 64 Gram matrix `Xᵀ X` and multiplies
  `X` by it, eight heads of one batch per grid point. At the exact values both matrix products are plain sums over
  the contracted axis (the narrowing of the Gram product's operands to a shorter float format is the identity there),
  so the kernel's result at (b, h, t, e) is
      ∑ d, x[b,h,t,d] · ∑ s, x[b,h,s,d] · x[b,h,s,e]
  and the reference's
      ∑ j, (∑ d, x[b,h,t,d] · x[b,h,j,d]) · x[b,h,j,e].
  The two agree by distributing each outer factor over the inner sum and exchanging the two sums. On the extended
  reals distributivity fails at the infinities, so this is where the precondition is used: every entry of `x` is a
  finite float, hence a real number, and over the reals the identity is the usual one.

  The three frames are the generated ones (the reference's is its generated run with the result dropped); the kernel
  has no idealization rewrite, so that conjunct is trivial; the last conjunct sets the kernel's run, read as the Gram
  arrangement of the whole argument array, beside the reference's run, read as the score arrangement.
-/
import proofs.«104794_j52261162058330_2_alg».proof.Defs
import proofs.«104794_j52261162058330_2_alg».proof.Proof.Gen.Kernel
import proofs.«104794_j52261162058330_2_alg».proof.Proof.Gen.Kernel.Skeleton
import proofs.«104794_j52261162058330_2_alg».proof.Proof.Gen.Kernel.Launch
import proofs.«104794_j52261162058330_2_alg».proof.Proof.Gen.Kernel.Points
import proofs.«104794_j52261162058330_2_alg».proof.Proof.Gen.Kernel.Frame
import proofs.«104794_j52261162058330_2_alg».proof.Proof.Gen.KernelIdeal
import proofs.«104794_j52261162058330_2_alg».proof.Proof.Gen.KernelIdeal.Skeleton
import proofs.«104794_j52261162058330_2_alg».proof.Proof.Gen.KernelIdeal.Launch
import proofs.«104794_j52261162058330_2_alg».proof.Proof.Gen.KernelIdeal.Points
import proofs.«104794_j52261162058330_2_alg».proof.Proof.Gen.KernelIdeal.Frame
import proofs.«104794_j52261162058330_2_alg».proof.Proof.Gen.ReferenceIdeal
import proofs.«104794_j52261162058330_2_alg».proof.Proof.Gen.Pre_finite_inputs
import proofs.«104794_j52261162058330_2_alg».proof.Proof.Gen.KernelIdeal.Value
import proofs.«104794_j52261162058330_2_alg».proof.Proof.Gen.ReferenceIdeal.Run
import proofs.«104794_j52261162058330_2_alg».proof.Proof.Gen.ReferenceIdeal.Read
import proofs.«104794_j52261162058330_2_alg».proof.Proof.AttnSpec
import proofs.«104794_j52261162058330_2_alg».proof.Proof.RefScores
import proofs.«104794_j52261162058330_2_alg».proof.Proof.GramArray
import proofs.«104794_j52261162058330_2_alg».proof.Proof.FiniteArgs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel ends with the Gram arrangement `X (Xᵀ X)` of its argument, the reference with the score arrangement
    `(X Xᵀ) X` of an argument that agrees with it; under the precondition the argument's entries are real numbers,
    on which the two arrangements are equal. -/
theorem algebraic : Cert.algebraic_KernelIdeal_ReferenceIdeal := by
  intro m ρ m' ρ' hpre hagree
  refine ⟨fun c => Cert.AttnSpec.viaGram (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq_viaScores, hagree c]
  exact (Cert.AttnSpec.viaGram_eq_viaScores _ (fun i => Cert.FiniteArgs.real_of_pre _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
